-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x512x3 .f32) (main_arg1 : FVec F S16384x256 .f32) (main_arg2 : FVec F S256x256 .f32) (main_arg3 : FVec F S256 .f32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S32x512x256 : Shape := ⟨3, ![32, 512, 256]⟩
abbrev S1x256 : Shape := ⟨2, ![1, 256]⟩
abbrev S32x3x512 : Shape := ⟨3, ![32, 3, 512]⟩
abbrev S1x3x512 : Shape := ⟨3, ![1, 3, 512]⟩
abbrev S1x512x256 : Shape := ⟨3, ![1, 512, 256]⟩
abbrev S512x256 : Shape := ⟨2, ![512, 256]⟩
abbrev S1x1x512 : Shape := ⟨3, ![1, 1, 512]⟩
abbrev S1x512 : Shape := ⟨2, ![1, 512]⟩
abbrev S512x1 : Shape := ⟨2, ![512, 1]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S32x512x3, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S32x512x256, .f32⟩
  | .hbm, ⟨5, _⟩ => ⟨S256x256, .f32⟩
  | .hbm, ⟨6, _⟩ => ⟨S1x256, .f32⟩
  | .hbm, ⟨7, _⟩ => ⟨S32x3x512, .f32⟩
  | .hbm, ⟨8, _⟩ => ⟨S32x512x256, .f32⟩
  | .hbm, ⟨9, _⟩ => ⟨S16384x256, .f32⟩
  | .local _ .vmem, ⟨0, _⟩ => ⟨S1x3x512, .f32⟩
  | .local _ .vmem, ⟨1, _⟩ => ⟨S1x3x512, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S1x256, .f32⟩
  | .local _ .vmem, ⟨6, _⟩ => ⟨S1x512x256, .f32⟩
  | .local _ .vmem, ⟨7, _⟩ => ⟨S1x512x256, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x256_S32x512x256 : S16384x256.ShapeCasts S32x512x256
  transposes_S256x256_S256x256_1_0 : S256x256.Transposes [1, 0] S256x256
  shapeCasts_S256_S1x256 : S256.ShapeCasts S1x256
  transposes_S32x512x3_S32x3x512_0_2_1 : S32x512x3.Transposes [0, 2, 1] S32x3x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x3x512_S1x1x512_0_0_0 : ∀ a, (![0, 0, 0] : Fin 3 → Nat) a + S1x1x512.size a ≤ S1x3x512.size a
  h_S1x1x512 : 0 < S1x1x512.numel
  shapeCasts_S1x1x512_S1x512 : S1x1x512.ShapeCasts S1x512
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  transposes_S1x512_p1_0_S512x1 : S1x512.Transposes [1, 0] S512x1
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x256_S1x512x256 : S512x256.ShapeCasts S1x512x256
  shapeCasts_S32x512x256_S16384x256 : S32x512x256.ShapeCasts S16384x256
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S32x3x512.size a
  hwx0_0 : ∀ i : grid0.Coords, EltTy.bits .f32 = 32 ∨ (Rect.block (s := S32x3x512) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S32x512x256.size a
  hwx0_4 : ∀ i : grid0.Coords, EltTy.bits .f32 = 32 ∨ (Rect.block (s := S32x512x256) S1x512x256.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v3) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x3 : Shape := ⟨3, ![32, 512, 3]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S32x512x256 : Shape := ⟨3, ![32, 512, 256]⟩
abbrev S32x512x1x3 : Shape := ⟨4, ![32, 512, 1, 3]⟩
abbrev S32x1x512x3 : Shape := ⟨4, ![32, 1, 512, 3]⟩
abbrev S32x512x512x3 : Shape := ⟨4, ![32, 512, 512, 3]⟩
abbrev S_ : Shape := ⟨0, ![]⟩
abbrev S32x512x512 : Shape := ⟨3, ![32, 512, 512]⟩
abbrev S512x512 : Shape := ⟨2, ![512, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x512x3, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S32x512x256, .f32⟩
  | .hbm, ⟨10, _⟩ => ⟨S32x512x1x3, .f32⟩
  | .hbm, ⟨11, _⟩ => ⟨S32x1x512x3, .f32⟩
  | .hbm, ⟨12, _⟩ => ⟨S32x512x512x3, .f32⟩
  | .hbm, ⟨13, _⟩ => ⟨S32x512x512x3, .f32⟩
  | .hbm, ⟨14, _⟩ => ⟨S32x512x512x3, .f32⟩
  | .hbm, ⟨15, _⟩ => ⟨S32x512x512x3, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S32x512x512, .i1⟩
  | .hbm, ⟨28, _⟩ => ⟨S32x512x512, .f32⟩
  | .hbm, ⟨29, _⟩ => ⟨S32x512x512, .f32⟩
  | .hbm, ⟨30, _⟩ => ⟨S_, .f32⟩
  | .hbm, ⟨31, _⟩ => ⟨S32x512x512, .f32⟩
  | .hbm, ⟨32, _⟩ => ⟨S32x512x512, .i1⟩
  | .hbm, ⟨33, _⟩ => ⟨S_, .f32⟩
  | .hbm, ⟨34, _⟩ => ⟨S32x512x512, .f32⟩
  | .hbm, ⟨35, _⟩ => ⟨S32x512x512, .f32⟩
  | .hbm, ⟨36, _⟩ => ⟨S_, .f32⟩
  | .hbm, ⟨37, _⟩ => ⟨S32x512x512, .f32⟩
  | .hbm, ⟨38, _⟩ => ⟨S32x512x512, .f32⟩
  | .hbm, ⟨39, _⟩ => ⟨S32x512x512, .f32⟩
  | .hbm, ⟨40, _⟩ => ⟨S_, .f32⟩
  | .hbm, ⟨41, _⟩ => ⟨S32x512x512, .f32⟩
  | .hbm, ⟨42, _⟩ => ⟨S32x512x512, .f32⟩
  | .hbm, ⟨43, _⟩ => ⟨S_, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S_, .f32⟩
  | .hbm, ⟨48, _⟩ => ⟨S32x512x512, .f32⟩
  | .hbm, ⟨49, _⟩ => ⟨S32x512x512, .f32⟩
  | .hbm, ⟨50, _⟩ => ⟨S_, .f32⟩
  | .hbm, ⟨51, _⟩ => ⟨S32x512x512, .f32⟩
  | .hbm, ⟨52, _⟩ => ⟨S32x512x512, .f32⟩
  | .hbm, ⟨53, _⟩ => ⟨S_, .f32⟩
  | .hbm, ⟨54, _⟩ => ⟨S32x512x512, .f32⟩
  | .hbm, ⟨55, _⟩ => ⟨S32x512x512, .f32⟩
  | .hbm, ⟨56, _⟩ => ⟨S32x512x512, .f32⟩
  | .hbm, ⟨57, _⟩ => ⟨S_, .f32⟩
  | .hbm, ⟨58, _⟩ => ⟨S_, .f32⟩
  | .hbm, ⟨59, _⟩ => ⟨S32x512x512, .i1⟩
  | .hbm, ⟨60, _⟩ => ⟨S32x512x512, .f32⟩
  | .hbm, ⟨61, _⟩ => ⟨S32x512x512, .f32⟩
  | .hbm, ⟨62, _⟩ => ⟨S32x512x256, .f32⟩
  | .hbm, ⟨63, _⟩ => ⟨S_, .f32⟩
  | .hbm, ⟨64, _⟩ => ⟨S32x512x256, .f32⟩
  | .hbm, ⟨65, _⟩ => ⟨S32x512x256, .f32⟩
  | .hbm, ⟨66, _⟩ => ⟨S32x512x256, .f32⟩
  | .hbm, ⟨67, _⟩ => ⟨S16384x256, .f32⟩
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x256_S32x512x256 : S16384x256.ShapeCasts S32x512x256
  bcast_S32x512x3_S32x512x1x3_0_1_3 : S32x512x3.BroadcastsInDim S32x512x1x3 (![0, 1, 3] : Fin 3 → Fin S32x512x1x3.rank)
  bcast_S32x512x3_S32x1x512x3_0_2_3 : S32x512x3.BroadcastsInDim S32x1x512x3 (![0, 2, 3] : Fin 3 → Fin S32x1x512x3.rank)
  bcast_S32x512x1x3_S32x512x512x3_0_1_2_3 : S32x512x1x3.BroadcastsInDim S32x512x512x3 (![0, 1, 2, 3] : Fin 4 → Fin S32x512x512x3.rank)
  bcast_S32x1x512x3_S32x512x512x3_0_1_2_3 : S32x1x512x3.BroadcastsInDim S32x512x512x3 (![0, 1, 2, 3] : Fin 4 → Fin S32x512x512x3.rank)
  reducesTo_S32x512x512x3_S32x512x512_d3 : S32x512x512x3.ReducesTo [3] S32x512x512
  h_S_ : 0 < S_.numel
  bcast_S_S512x512 : S_.BroadcastsInDim S512x512 (![] : Fin 0 → Fin S512x512.rank)
  bcast_S512x512_S32x512x512_1_2 : S512x512.BroadcastsInDim S32x512x512 (![1, 2] : Fin 2 → Fin S32x512x512.rank)
  bcast_S_S32x512x512 : S_.BroadcastsInDim S32x512x512 (![] : Fin 0 → Fin S32x512x512.rank)
  bcast_S_S32x512x256 : S_.BroadcastsInDim S32x512x256 (![] : Fin 0 → Fin S32x512x256.rank)
  shapeCasts_S32x512x256_S16384x256 : S32x512x256.ShapeCasts S16384x256
  dot_S16384x256_S256x256_S16384x256_1_0_0_1_n_n_wf : DotDims.WF S16384x256 S256x256 S16384x256 [1] [0] [0] [1] [] []
  dot_S32x512x512_S32x512x256_S32x512x256_2_1_1_2_0_0_wf : DotDims.WF S32x512x512 S32x512x256 S32x512x256 [2] [1] [1] [2] [0] [0]

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S32x512x512_S32x512x256_S32x512x256_2_1_1_2_0_0 : DotDims S32x512x512 S32x512x256 S32x512x256 where
  lhsContracting := [2]
  rhsContracting := [1]
  lhsNonContracting := [1]
  rhsNonContracting := [2]
  lhsBatch := [0]
  rhsBatch := [0]
  wf := dot_S32x512x512_S32x512x256_S32x512x256_2_1_1_2_0_0_wf

class Facts : Prop extends Facts₀ where

variable [Facts]
-- ==== Proof.PairWeight.lean ====
/-
  The pair weight of the Coulomb potential with a switched-off core, over the extended reals.

  For a squared distance `x` the weight is `(1/r)·(1 − f(r))` with `r = √x` and `f` the cosine switch
  `f(r) = ½·(1 + cos(π·r/5))` below `r = 5`, `0` from there on.  It can be computed from `x` in two ways: through the
  reciprocal square root, `r⁻¹ = rsqrt x` and `r = x · rsqrt x`, or through the square root, `r = √x` and `r⁻¹ = 1/r`.
  On every `x` of `[0, +∞]` the two agree: for a positive real `x` because `x·(√x)⁻¹ = √x`; at `x = 0` both reciprocals
  are `+∞` and both distances `0`; at `x = +∞` both reciprocals are `0`, which annihilates the other factor.
  A squared distance is a sum of squares, hence in `[0, +∞]` whatever extended reals the coordinates are.
-/
import Idealize.ShloMosaic.PureOps.Ideal
import Idealize.ShloMosaic.Lib.ValueIdx

noncomputable section

namespace Cert.PairWeight

open Idealize.ShloMosaic Idealize.ShloMosaic.ValueIdx

/-- The numbers both programs spell, as the extended reals their binary patterns denote. -/
abbrev one : EReal := Ideal.ofBits .f32 0x3F800000#32
abbrev five : EReal := Ideal.ofBits .f32 0x40A00000#32
abbrev pi32 : EReal := Ideal.ofBits .f32 0x40490FDB#32
abbrev half : EReal := Ideal.ofBits .f32 0x3F000000#32
abbrev zero : EReal := Ideal.ofBits .f32 0x00000000#32

/-- The pattern of `1.0` denotes `1`. -/
theorem one_eq : one = 1 := by
  simp [Ideal.ofBits, Ideal.ieee, -EReal.coe_mul]; norm_num

/-- The cosine switch `f(r)`: `½·(1 + cos(π·r/5))` below `5`, `0` from `5` on. -/
def switch (r : EReal) : EReal :=
  Scalar.select (Ideal.cmp .olt r five) (half * (one + Ideal.cos (Ideal.div (pi32 * r) five))) zero

/-- The weight from the squared distance through the reciprocal square root. -/
def viaRsqrt (x : EReal) : EReal := Ideal.rsqrt x * (one - switch (x * Ideal.rsqrt x))

/-- The weight from the squared distance through the square root and a quotient. -/
def viaSqrt (x : EReal) : EReal := Ideal.div one (Ideal.sqrt x) * (one - switch (Ideal.sqrt x))

/-- On `[0, +∞]` the two computations of the weight agree. -/
theorem viaRsqrt_eq_viaSqrt (x : EReal) (hx : 0 ≤ x) : viaRsqrt x = viaSqrt x := by
  induction x using EReal.rec with
  | bot => exact absurd hx (not_le.mpr EReal.bot_lt_zero)
  | top =>
    unfold viaRsqrt viaSqrt
    rw [Ideal.rsqrt_top, Ideal.sqrt_top, zero_mul]
    unfold Ideal.div
    rw [if_neg EReal.top_ne_zero, EReal.inv_top, mul_zero, zero_mul]
  | coe r =>
    have hr : 0 ≤ r := EReal.coe_nonneg.mp hx
    unfold viaRsqrt viaSqrt
    rw [Ideal.rsqrt_coe, Ideal.sqrt_coe, if_neg (not_lt.mpr hr), if_neg (not_lt.mpr hr)]
    by_cases h0 : r = 0
    · subst h0
      rw [if_pos rfl, Real.sqrt_zero, EReal.coe_zero, zero_mul]
      unfold Ideal.div
      rw [if_pos rfl, if_pos (by rw [one_eq]; exact zero_lt_one)]
    · rw [if_neg h0]
      have hpos : 0 < r := lt_of_le_of_ne hr (Ne.symm h0)
      have hs : Real.sqrt r ≠ 0 := (Real.sqrt_pos.mpr hpos).ne'
      have hd : (r : EReal) * ((Real.sqrt r)⁻¹ : ℝ) = (Real.sqrt r : ℝ) := by
        rw [← EReal.coe_mul]
        congr 1
        nth_rewrite 1 [← Real.mul_self_sqrt hr]
        rw [mul_assoc, mul_inv_cancel₀ hs, mul_one]
      rw [hd]
      unfold Ideal.div
      rw [if_neg (by exact_mod_cast hs), ← EReal.coe_inv, one_eq, one_mul]

/-- The weight as the kernel forms it at one pair: on the diagonal (`e = 1`) the squared distance is replaced by `1`
    before the reciprocal square root and the weight by `0` after it. -/
def kernelForm (e : BitVec 1) (x : EReal) : EReal :=
  Scalar.select e zero
    (Ideal.rsqrt (Scalar.select e one x) * (one - switch (Scalar.select e one x * Ideal.rsqrt (Scalar.select e one x))))

/-- The weight as the reference forms it at one pair: on the diagonal the distance `√x` is replaced by `1` and the
    weight by `0`. -/
def referenceForm (e : BitVec 1) (x : EReal) : EReal :=
  Scalar.select e zero
    (Ideal.div one (Scalar.select e one (Ideal.sqrt x)) * (one - switch (Scalar.select e one (Ideal.sqrt x))))

/-- Off the diagonal the two forms are the two computations above; on it both are `0`. -/
theorem kernelForm_eq_referenceForm (e : BitVec 1) (x : EReal) (hx : 0 ≤ x) : kernelForm e x = referenceForm e x := by
  unfold kernelForm referenceForm
  by_cases h : e = 1#1
  · subst h
    rw [select_one, select_one]
  · have h0 := eq_zero_of_ne_one h
    subst h0
    simp only [select_zero]
    exact viaRsqrt_eq_viaSqrt x hx

/-- A square of an extended real is not negative. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (_root_.mul_self_nonneg r)

/-- Nor is a sum of three squares. -/
theorem sumsq_nonneg (a b c : EReal) : 0 ≤ a * a + b * b + c * c :=
  add_nonneg (add_nonneg (mul_self_nonneg a) (mul_self_nonneg b)) (mul_self_nonneg c)

end Cert.PairWeight

end
-- ==== Proof.Potential.lean ====
/-
  What both programs compute, as one function of the four argument arrays, index by index, over the extended reals.

  There are 32 independent systems of 512 atoms.  Atom `p` of system `s` is row `s·512 + p` of the feature matrix; its
  256 charges are `q(s,p,f) = Σ_k feat(s·512+p, k) · W(f, k) + b(f)`.  The squared distance of atoms `p`, `j` of one system
  is the sum of the squares of the three coordinate differences, and the pair weight `w(s,p,j)` is the switched Coulomb
  weight of that squared distance, `0` on the diagonal (Proof/PairWeight.lean).  The result at `(s, p, f)` is
  `(½ · Σ_j w(s,p,j) · q(s,j,f)) · q(s,p,f)`.
-/
import Idealize.ShloMosaic.PureOps.Ideal
import Idealize.ShloMosaic.Lib.ValueIdx
import proofs.«158745_j51788715655672_2_alg».proof.Proof.PairWeight

noncomputable section

namespace Cert.Potential

open Idealize.ShloMosaic Idealize.ShloMosaic.ValueIdx

/-- The row of the feature matrix that holds atom `p` of system `s`. -/
def row (s : Fin 32) (p : Fin 512) : Fin 16384 := ⟨s.val * 512 + p.val, by have := s.isLt; have := p.isLt; omega⟩

/-- Charge `f` of the atom in row `r`: the linear map of its features, plus the bias. -/
def charge (feat : (⟨2, ![16384, 256]⟩ : Shape).Idx → EReal) (W : (⟨2, ![256, 256]⟩ : Shape).Idx → EReal)
    (b : (⟨1, ![256]⟩ : Shape).Idx → EReal) (r : Fin 16384) (f : Fin 256) : EReal :=
  (∑ k : Fin 256, feat (ix2 r k) * W (ix2 f k)) + b (ix1 f)

/-- Whether two atom numbers are the same, as the one-bit word both programs compute it from 32-bit words. -/
def same (p j : Fin 512) : BitVec 1 := IntOp.cmpi .eq (BitVec.ofNat 32 p.val) (BitVec.ofNat 32 j.val)

/-- The squared distance of atoms `p` and `j` of system `s`. -/
def sqDist (pos : (⟨3, ![32, 512, 3]⟩ : Shape).Idx → EReal) (s : Fin 32) (p j : Fin 512) : EReal :=
  (pos (ix3 s p 0) - pos (ix3 s j 0)) * (pos (ix3 s p 0) - pos (ix3 s j 0))
    + (pos (ix3 s p 1) - pos (ix3 s j 1)) * (pos (ix3 s p 1) - pos (ix3 s j 1))
    + (pos (ix3 s p 2) - pos (ix3 s j 2)) * (pos (ix3 s p 2) - pos (ix3 s j 2))

theorem sqDist_nonneg (pos : (⟨3, ![32, 512, 3]⟩ : Shape).Idx → EReal) (s : Fin 32) (p j : Fin 512) :
    0 ≤ sqDist pos s p j :=
  PairWeight.sumsq_nonneg _ _ _

/-- The pair weight through the reciprocal square root, and through the square root. -/
def weightRsqrt (pos : (⟨3, ![32, 512, 3]⟩ : Shape).Idx → EReal) (s : Fin 32) (p j : Fin 512) : EReal :=
  PairWeight.kernelForm (same p j) (sqDist pos s p j)
def weightSqrt (pos : (⟨3, ![32, 512, 3]⟩ : Shape).Idx → EReal) (s : Fin 32) (p j : Fin 512) : EReal :=
  PairWeight.referenceForm (same p j) (sqDist pos s p j)

/-- They are one function: a squared distance is never negative. -/
theorem weightRsqrt_eq_weightSqrt (pos : (⟨3, ![32, 512, 3]⟩ : Shape).Idx → EReal) :
    weightRsqrt pos = weightSqrt pos := by
  funext s p j
  exact PairWeight.kernelForm_eq_referenceForm _ _ (sqDist_nonneg pos s p j)

/-- The result at `(s, p, f)` from a weight and the charges. -/
def energy (w : Fin 32 → Fin 512 → Fin 512 → EReal) (q : Fin 16384 → Fin 256 → EReal)
    (s : Fin 32) (p : Fin 512) (f : Fin 256) : EReal :=
  (PairWeight.half * ∑ j : Fin 512, w s p j * q (row s j) f) * q (row s p) f

/-- The result array, one entry per system, atom and charge channel. -/
def result (pos : (⟨3, ![32, 512, 3]⟩ : Shape).Idx → EReal) (feat : (⟨2, ![16384, 256]⟩ : Shape).Idx → EReal)
    (W : (⟨2, ![256, 256]⟩ : Shape).Idx → EReal) (b : (⟨1, ![256]⟩ : Shape).Idx → EReal) :
    (⟨3, ![32, 512, 256]⟩ : Shape).Idx → EReal :=
  fun i => energy (weightSqrt pos) (charge feat W b) (i 0) (i 1) (i 2)

end Cert.Potential

end
-- ==== Proof.ReferenceValue.lean ====
/-
  The reference, read index by index: the array it holds before its last reshape is `Potential.result` of its arguments.

  Its charges are a product with the transposed weight matrix plus the broadcast bias, reshaped to one block of 512 rows
  per system: entry `(s, p, f)` is row `s·512 + p`, column `f`.  Its pair weight is formed from the distance `√x` of the squared
  distance `x`, which it sums over the three coordinates starting from `0`; its diagonal test adds `0` to the row number
  before comparing.  Its result is half the batched product of weights and charges, times the charges.
-/
import proofs.«158745_j51788715655672_2_alg».proof.Proof.Gen.ReferenceIdeal.Read
import proofs.«158745_j51788715655672_2_alg».proof.Proof.Potential

noncomputable section

namespace Cert.ReferenceIdeal.RefValue

open Cert.ReferenceIdeal Cert.ReferenceIdeal.Gen Cert.ReferenceIdeal.Read Idealize.ShloMosaic Idealize.ShloMosaic.ValueIdx
open Cert.Potential

/-- The reference's charges at `(s, p, f)`: row `s·512 + p` of the features against row `f` of the weight matrix, plus
    the bias at `f`. -/
theorem charge_ref (x1 : (⟨S16384x256, .f32⟩ : BufTy).Contents (Elt Ideal)) (x2 : (⟨S256x256, .f32⟩ : BufTy).Contents (Elt Ideal))
    (x3 : (⟨S256, .f32⟩ : BufTy).Contents (Elt Ideal)) (s : Fin 32) (p : Fin 512) (f : Fin 256) :
    val_main_v5 (F := Ideal) x1 x2 x3 (ix3 s p f) = charge x1 x2 x3 (row s p) f := by
  rw [val_main_v5_apply, val_main_v4_apply, val_main_v1_apply, val_main_v3_apply, val_main_v2_apply]
  simp only [val_main_v0_apply]
  have e5 : idx_main_v5 (ix3 s p f) = ix2 (row s p) f := funext fun a => Fin.ext (by
    match a with
    | ⟨0, _⟩ => show ((s.val * 512 + p.val) * 256 + f.val) / 256 = s.val * 512 + p.val; have := f.isLt; omega
    | ⟨1, _⟩ => show ((s.val * 512 + p.val) * 256 + f.val) % 256 = f.val; have := f.isLt; omega)
  rw [e5]
  have el : ∀ k : Fin 256, lidx_main_v1 (ix2 (row s p) f) k = ix2 (row s p) k := fun k => funext fun a => Fin.ext (by
    match a with
    | ⟨0, _⟩ => rfl
    | ⟨1, _⟩ => rfl)
  have er : ∀ k : Fin 256, idx_main_v0 (ridx_main_v1 (ix2 (row s p) f) k) = ix2 f k := fun k => funext fun a => Fin.ext (by
    match a with
    | ⟨0, _⟩ => rfl
    | ⟨1, _⟩ => rfl)
  have eb : idx_main_v2 (idx_main_v3 (ix2 (row s p) f)) = ix1 f := funext fun a => Fin.ext (by
    match a with
    | ⟨0, _⟩ => rfl)
  simp only [el, er, eb]
  rfl

/-- The sum over the three coordinates, started from `0`, is the squared distance. -/
theorem sqDist_ref (x0 : (⟨S32x512x3, .f32⟩ : BufTy).Contents (Elt Ideal)) (s : Fin 32) (p j : Fin 512) :
    (FloatOps.ofBits (F := Ideal) .f32 0#32 + ∑ k : Fin 3,
      FloatOps.mulf (FloatOps.subf (x0 (ix3 s p k)) (x0 (ix3 s j k))) (FloatOps.subf (x0 (ix3 s p k)) (x0 (ix3 s j k))))
      = sqDist x0 s p j := by
  rw [Fin.sum_univ_three]
  show Ideal.ofBits .f32 0x00000000#32 + _ = _
  rw [Ideal.ofBits_zero_f32, zero_add]
  rfl

/-- The reference's pair weight at `(s, p, j)` is the weight formed through the square root. -/
theorem weight_ref (x0 : (⟨S32x512x3, .f32⟩ : BufTy).Contents (Elt Ideal)) (s : Fin 32) (p j : Fin 512) :
    val_main_v37 (F := Ideal) x0 (ix3 s p j) = weightSqrt x0 s p j := by
  have e6 : ∀ k : Fin 3, idx_main_v6 (idx_main_v8 (idx_main_v12 (ix3 s p j) k)) = ix3 s p k := fun k => funext fun a => Fin.ext (by
    match a with
    | ⟨0, _⟩ => rfl
    | ⟨1, _⟩ => rfl
    | ⟨2, _⟩ => rfl)
  have e7 : ∀ k : Fin 3, idx_main_v7 (idx_main_v9 (idx_main_v12 (ix3 s p j) k)) = ix3 s j k := fun k => funext fun a => Fin.ext (by
    match a with
    | ⟨0, _⟩ => rfl
    | ⟨1, _⟩ => rfl
    | ⟨2, _⟩ => rfl)
  have he : IntOp.cmpi .eq (IntOp.addi (BitVec.ofNat 32 (ix3 s p j 1).val) 0#32) (BitVec.ofNat 32 (ix3 s p j 2).val) = same p j := by
    show IntOp.cmpi .eq (BitVec.ofNat 32 p.val + 0#32) (BitVec.ofNat 32 j.val) = _
    rw [BitVec.add_zero]
    rfl
  simp only [val_main_v37_apply, val_main_call2_v1_apply, val_main_call2_v2_apply, val_main_call2_v0_apply, val_main_cst_9_apply,
    val_main_v36_apply, val_main_v33_apply, val_main_v32_apply, val_main_cst_7_apply, val_main_v35_apply, val_main_v34_apply,
    val_main_cst_8_apply, val_main_v31_apply, val_main_v21_apply, val_main_v20_apply, val_main_cst_1_apply, val_main_v30_apply,
    val_main_v29_apply, val_main_cst_5_apply, val_main_v28_apply, val_main_v27_apply, val_main_cst_4_apply, val_main_v26_apply,
    val_main_v25_apply, val_main_v23_apply, val_main_v22_apply, val_main_cst_2_apply, val_main_v24_apply, val_main_cst_3_apply,
    val_main_call1_v1_apply, val_main_call1_v0_apply, val_main_cst_6_apply, val_main_v19_apply, val_main_call0_v1_apply,
    val_main_call0_v2_apply, val_main_call0_v0_apply, val_main_cst_0_apply, val_main_v18_apply, val_main_v17_apply,
    val_main_v14_apply, val_main_v16_apply, val_main_c_apply, val_main_v15_apply, val_main_v13_apply, val_main_v12_apply,
    val_main_cst_apply, val_main_v11_apply, val_main_v10_apply, val_main_v8_apply, val_main_v9_apply, val_main_v6_apply,
    val_main_v7_apply, e6, e7, he, sqDist_ref]
  rfl

/-- The reference's array before its last reshape is the result. -/
theorem result_ref (x0 : (⟨S32x512x3, .f32⟩ : BufTy).Contents (Elt Ideal)) (x1 : (⟨S16384x256, .f32⟩ : BufTy).Contents (Elt Ideal))
    (x2 : (⟨S256x256, .f32⟩ : BufTy).Contents (Elt Ideal)) (x3 : (⟨S256, .f32⟩ : BufTy).Contents (Elt Ideal)) :
    val_main_v41 (F := Ideal) x0 x1 x2 x3 = result x0 x1 x2 x3 := by
  funext i
  obtain ⟨s, p, f, rfl⟩ : ∃ (s : Fin 32) (p : Fin 512) (f : Fin 256), i = ix3 s p f := ⟨i 0, i 1, i 2, eq_ix3 i⟩
  rw [val_main_v41_apply, val_main_v40_apply, val_main_v39_apply, val_main_cst_10_apply, val_main_v38_apply]
  have el : ∀ k : Fin 512, lidx_main_v38 (ix3 s p f) k = ix3 s p k := fun k => funext fun a => Fin.ext (by
    match a with
    | ⟨0, _⟩ => rfl
    | ⟨1, _⟩ => rfl
    | ⟨2, _⟩ => rfl)
  have er : ∀ k : Fin 512, ridx_main_v38 (ix3 s p f) k = ix3 s k f := fun k => funext fun a => Fin.ext (by
    match a with
    | ⟨0, _⟩ => rfl
    | ⟨1, _⟩ => rfl
    | ⟨2, _⟩ => rfl)
  simp only [el, er, weight_ref, charge_ref]
  rfl

end Cert.ReferenceIdeal.RefValue

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.KernelBlock.lean ====
/-
  One grid point of the kernel, read index by index: what the body stores in its output block, from its input blocks.

  The body sees one system: its three coordinate rows `x0` (`[1, 3, 512]`), its 512 feature rows `x1` (`[1, 512, 256]`), the
  transposed weight matrix `x2` and the bias row `x3` (`[1, 256]`).  Its charges are the product `x1 · x2` plus the bias row
  broadcast down the rows.  A coordinate row is used twice, as a row broadcast down the rows and, transposed to a column,
  broadcast along the rows, so that entry `(p, j)` of their difference is coordinate `p` minus coordinate `j`.  The diagonal
  test compares the row number with the column number.  The stored block is half the product of the pair weights with the
  charges, times the charges.
-/
import proofs.«158745_j51788715655672_2_alg».proof.Proof.Gen.KernelIdeal.Frame
import proofs.«158745_j51788715655672_2_alg».proof.Proof.LibMatmulPlain
import proofs.«158745_j51788715655672_2_alg».proof.Proof.LibColumnLayout
import proofs.«158745_j51788715655672_2_alg».proof.Proof.Potential
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx
open Cert.Potential Cert.PairWeight

/-- Both matrix products of the body are plain products `[M, K] · [K, N]`. -/
theorem plain_feat : MatmulPlain.IsPlain dot_S512x256_S256x256_S512x256_1_0_0_1_n_n := ⟨rfl, rfl, rfl, rfl, rfl, rfl⟩
theorem plain_pair : MatmulPlain.IsPlain dot_S512x512_S512x256_S512x256_1_0_0_1_n_n := ⟨rfl, rfl, rfl, rfl, rfl, rfl⟩

/-- The charges of the block: entry `(p, f)` is feature row `p` against column `f` of the transposed weights, plus the bias. -/
theorem charges_apply (v0 : FVec Ideal S1x512x256 .f32) (v3 : FVec Ideal S256x256 .f32) (v7 : FVec Ideal S1x256 .f32)
    (p : Fin 512) (f : Fin 256) :
    k0_pay2 (F := Ideal) v0 v3 v7 (ix2 p f) = (∑ k : Fin 256, v0 (ix3 0 p k) * v3 (ix2 k f)) + v7 (ix2 0 f) := by
  unfold k0_pay2
  refine (congrArg₂ (· + ·) (MatmulPlain.matmul_zero_apply plain_feat none _ _ p f)
    (broadcastTo_1b_ab_apply _ _ p f)).trans ?_
  simp only [shapeCast_self]
  refine congrArg (· + v7 (ix2 0 f)) (Finset.sum_congr rfl fun k _ => ?_)
  exact congrArg₂ (· * ·) (shapeCast_1ab_ab_apply v0 _ p k) rfl

/-- The diagonal test at `(p, j)`. -/
theorem diag_apply (p j : Fin 512) : k0_pay3 (ix2 p j) = same p j := by
  unfold k0_pay3
  show IntOp.cmpi .eq (iota .tc S512x512 32 [0] _ (ix2 p j)) (iota .tc S512x512 32 [1] _ (ix2 p j)) = _
  rw [iota_single_apply, iota_single_apply]
  rfl

/-- A coordinate row turned into a column and broadcast along the rows reads coordinate `p` at `(p, j)`. -/
theorem col_apply (v : FVec Ideal S1x1x512 .f32) (p j : Fin 512) :
    broadcastTo S512x512 (transpose S512x1 [1, 0] (shapeCast S1x512 v Facts₀.shapeCasts_S1x1x512_S1x512)
      Facts₀.transposes_S1x512_p1_0_S512x1) Facts₀.broadcasts_S512x1_S512x512 (ix2 p j) = v (ix3 0 0 p) := by
  rw [ColumnLayout.broadcastTo_a1_ab_apply, transpose_ix2_apply, shapeCast_1ab_ab_apply]

/-- A coordinate row broadcast down the rows reads coordinate `j` at `(p, j)`. -/
theorem row_apply (v : FVec Ideal S1x1x512 .f32) (p j : Fin 512) :
    broadcastTo S512x512 (shapeCast S1x512 v Facts₀.shapeCasts_S1x1x512_S1x512) Facts₀.broadcasts_S1x512_S512x512 (ix2 p j)
      = v (ix3 0 0 j) := by
  rw [broadcastTo_1b_ab_apply, shapeCast_1ab_ab_apply]

/-- The squared distance of coordinates `p` and `j` from three coordinate rows. -/
def rowsSqDist (a0 a1 a2 : FVec Ideal S1x1x512 .f32) (p j : Fin 512) : EReal :=
  (a0 (ix3 0 0 p) - a0 (ix3 0 0 j)) * (a0 (ix3 0 0 p) - a0 (ix3 0 0 j))
    + (a1 (ix3 0 0 p) - a1 (ix3 0 0 j)) * (a1 (ix3 0 0 p) - a1 (ix3 0 0 j))
    + (a2 (ix3 0 0 p) - a2 (ix3 0 0 j)) * (a2 (ix3 0 0 p) - a2 (ix3 0 0 j))

/-- The squared distance with the diagonal replaced by `1`, at `(p, j)`. -/
theorem guarded_apply (v11 v13 v15 : FVec Ideal S1x1x512 .f32) (p j : Fin 512) :
    k0_pay4 (F := Ideal) v11 v13 v15 (ix2 p j) = Scalar.select (same p j) one (rowsSqDist v11 v13 v15 p j) := by
  unfold k0_pay4
  simp only [select_apply, addf_apply, mulf_apply, subf_apply, broadcast_apply, row_apply, diag_apply]
  rw [col_apply v11 p j, col_apply v13 p j, col_apply v15 p j]
  rfl

/-- Its reciprocal square root, and the distance as their product. -/
theorem rsq_apply (v11 v13 v15 : FVec Ideal S1x1x512 .f32) (p j : Fin 512) :
    k0_pay5 (F := Ideal) v11 v13 v15 (ix2 p j) = Ideal.rsqrt (k0_pay4 (F := Ideal) v11 v13 v15 (ix2 p j)) := rfl
theorem dist_apply (v11 v13 v15 : FVec Ideal S1x1x512 .f32) (p j : Fin 512) :
    k0_pay6 (F := Ideal) v11 v13 v15 (ix2 p j)
      = k0_pay4 (F := Ideal) v11 v13 v15 (ix2 p j) * k0_pay5 (F := Ideal) v11 v13 v15 (ix2 p j) := rfl

/-- What is stored at `(0, p, f)`, from the charges `v10`, the diagonal bits `v36`, the reciprocal distances `v39` and the
    distances `v40`: half the row of weights against column `f` of the charges, times the charge at `(p, f)`. -/
theorem stored_apply (v10 : FVec Ideal S512x256 .f32) (v36 : IVec S512x512 1) (v39 v40 : FVec Ideal S512x512 .f32)
    (p : Fin 512) (f : Fin 256) :
    k0_pay1 (F := Ideal) v10 v36 v39 v40 (ix3 0 p f)
      = (half * ∑ j : Fin 512,
          Scalar.select (v36 (ix2 p j)) zero (v39 (ix2 p j) * (one - switch (v40 (ix2 p j)))) * v10 (ix2 j f))
        * v10 (ix2 p f) := by
  unfold k0_pay1
  refine (shapeCast_ab_1ab_apply _ _ 0 p f).trans ?_
  refine (congrArg (fun z => (half * z) * v10 (ix2 p f)) (MatmulPlain.matmul_zero_apply plain_pair none _ _ p f)).trans ?_
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The three coordinate rows are rows 0, 1, 2 of the position block. -/
theorem ld_coord0 (x0 : Vec Ideal S1x3x512 .f32) (j : Fin 512) : View.ld x0 r0_3 (ix3 0 0 j) = x0 (ix3 0 0 j) := by
  show x0 (r0_3.emb (ix3 0 0 j)) = x0 (ix3 0 0 j)
  refine congrArg x0 (funext fun a => Fin.ext ?_)
  rw [Rect.emb_apply, Rect.off_unit, Rect.stride_unit]
  match a with
  | ⟨0, _⟩ => rfl
  | ⟨1, _⟩ => rfl
  | ⟨2, _⟩ => show 0 + 1 * j.val = j.val; omega
theorem ld_coord1 (x0 : Vec Ideal S1x3x512 .f32) (j : Fin 512) : View.ld x0 r0_4 (ix3 0 0 j) = x0 (ix3 0 1 j) := by
  show x0 (r0_4.emb (ix3 0 0 j)) = x0 (ix3 0 1 j)
  refine congrArg x0 (funext fun a => Fin.ext ?_)
  rw [Rect.emb_apply, Rect.off_unit, Rect.stride_unit]
  match a with
  | ⟨0, _⟩ => rfl
  | ⟨1, _⟩ => rfl
  | ⟨2, _⟩ => show 0 + 1 * j.val = j.val; omega
theorem ld_coord2 (x0 : Vec Ideal S1x3x512 .f32) (j : Fin 512) : View.ld x0 r0_5 (ix3 0 0 j) = x0 (ix3 0 2 j) := by
  show x0 (r0_5.emb (ix3 0 0 j)) = x0 (ix3 0 2 j)
  refine congrArg x0 (funext fun a => Fin.ext ?_)
  rw [Rect.emb_apply, Rect.off_unit, Rect.stride_unit]
  match a with
  | ⟨0, _⟩ => rfl
  | ⟨1, _⟩ => rfl
  | ⟨2, _⟩ => show 0 + 1 * j.val = j.val; omega

/-- The charges of one block, and the squared distance of two of its atoms, from the blocks themselves. -/
def blockCharge (x1 : Vec Ideal S1x512x256 .f32) (x2 : Vec Ideal S256x256 .f32) (x3 : Vec Ideal S1x256 .f32)
    (p : Fin 512) (f : Fin 256) : EReal :=
  (∑ k : Fin 256, x1 (ix3 0 p k) * x2 (ix2 k f)) + x3 (ix2 0 f)
def blockSqDist (x0 : Vec Ideal S1x3x512 .f32) (p j : Fin 512) : EReal :=
  (x0 (ix3 0 0 p) - x0 (ix3 0 0 j)) * (x0 (ix3 0 0 p) - x0 (ix3 0 0 j))
    + (x0 (ix3 0 1 p) - x0 (ix3 0 1 j)) * (x0 (ix3 0 1 p) - x0 (ix3 0 1 j))
    + (x0 (ix3 0 2 p) - x0 (ix3 0 2 j)) * (x0 (ix3 0 2 p) - x0 (ix3 0 2 j))

/-- The guarded squared distance of the block's atoms `p`, `j`, from the three loaded coordinate rows. -/
theorem guarded_block (x0 : Vec Ideal S1x3x512 .f32) (p j : Fin 512) :
    k0_pay4 (F := Ideal) (View.ld x0 r0_3) (View.ld x0 r0_4) (View.ld x0 r0_5) (ix2 p j)
      = Scalar.select (same p j) one (blockSqDist x0 p j) := by
  rw [guarded_apply]
  unfold rowsSqDist blockSqDist
  rw [ld_coord0 x0 p, ld_coord0 x0 j, ld_coord1 x0 p, ld_coord1 x0 j, ld_coord2 x0 p, ld_coord2 x0 j]

/-- The pair weight the body forms at `(p, j)`: the kernel's form of the weight of the squared distance. -/
theorem weight_block (x0 : Vec Ideal S1x3x512 .f32) (p j : Fin 512) :
    Scalar.select (k0_pay3 (ix2 p j)) zero
        (k0_pay5 (F := Ideal) (View.ld x0 r0_3) (View.ld x0 r0_4) (View.ld x0 r0_5) (ix2 p j)
          * (one - switch (k0_pay6 (F := Ideal) (View.ld x0 r0_3) (View.ld x0 r0_4) (View.ld x0 r0_5) (ix2 p j))))
      = kernelForm (same p j) (blockSqDist x0 p j) := by
  rw [dist_apply, rsq_apply, guarded_block, diag_apply]
  rfl

/-- The charges the body forms at `(p, f)`, from the loaded blocks. -/
theorem charge_block (x1 : Vec Ideal S1x512x256 .f32) (x2 : Vec Ideal S256x256 .f32) (x3 : Vec Ideal S1x256 .f32)
    (p : Fin 512) (f : Fin 256) :
    k0_pay2 (F := Ideal) (View.ld x1 r0_0) (View.ld x2 r0_1) (View.ld x3 r0_2) (ix2 p f) = blockCharge x1 x2 x3 p f := by
  rw [charges_apply, View.ld_unit_zero (S := S1x512x256) hz3, View.ld_unit_zero (S := S256x256) hz2,
    View.ld_unit_zero (S := S1x256) hz2]
  rfl

/-- THE BLOCK the body leaves in the output's staging buffer, at `(0, p, f)`. -/
theorem block_apply (x0 : Vec Ideal S1x3x512 .f32) (x1 : Vec Ideal S1x512x256 .f32) (x2 : Vec Ideal S256x256 .f32)
    (x3 : Vec Ideal S1x256 .f32) (p : Fin 512) (f : Fin 256) :
    out0_4 (F := Ideal) x0 x1 x2 x3 (ix3 0 p f)
      = (half * ∑ j : Fin 512, kernelForm (same p j) (blockSqDist x0 p j) * blockCharge x1 x2 x3 j f)
        * blockCharge x1 x2 x3 p f := by
  unfold out0_4
  rw [View.canon_unit_zero hz3, stored_apply, charge_block]
  refine congrArg (fun z => (half * z) * blockCharge x1 x2 x3 p f) (Finset.sum_congr rfl fun j _ => ?_)
  exact congrArg₂ (· * ·) (weight_block x0 p j) (charge_block x1 x2 x3 j f)

end Cert.KernelIdeal.Block

end
-- ==== Proof.KernelArray.lean ====
/-
  The kernel's whole run, read index by index: its result is the reshape of `Potential.result` of its arguments.

  Before the region four host lines only move indices: the features are reshaped to one block of 512 rows per system, the
  weight matrix is transposed, the bias becomes a one-row matrix, and the positions are transposed so that each system holds
  three rows of 512 coordinates.  The grid has one point per system; at point `s` the body sees block `s` of the positions
  and of the features and the whole of the other two arrays, and what it stores (Proof/KernelBlock.lean) is written back as
  block `s` of the output.  Every output index lies in the block of its system, so the output array ends as one function
  of the arguments; the line after the region reshapes it.
-/
import proofs.«158745_j51788715655672_2_alg».proof.Proof.Gen.KernelIdeal.Frame
import proofs.«158745_j51788715655672_2_alg».proof.Proof.KernelBlock
import proofs.«158745_j51788715655672_2_alg».proof.Proof.Potential
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Potential Cert.PairWeight Cert.KernelIdeal.Block

variable (m : (ℓ : Loc nD τ sig) → Buf (Elt Ideal) ℓ) (ρ : Dev nD → PrngReg)

/-- The four argument arrays on core `c`. -/
abbrev pos (c : Dev nD) : S32x512x3.Idx → EReal := m ((c : Thread nD τ).loc main_arg0)
abbrev feat (c : Dev nD) : S16384x256.Idx → EReal := m ((c : Thread nD τ).loc main_arg1)
abbrev wgt (c : Dev nD) : S256x256.Idx → EReal := m ((c : Thread nD τ).loc main_arg2)
abbrev bias (c : Dev nD) : S256.Idx → EReal := m ((c : Thread nD τ).loc main_arg3)

/-! ## The arrays the region finds -/

theorem V_feat (c : Dev nD) : (V m c main_v0 : S32x512x256.Idx → EReal)
    = shapeCast S32x512x256 (feat m c) Facts₀.shapeCasts_S16384x256_S32x512x256 := by
  show StableHlo.after hostOps0 (fun b => m (c, b)) (Proc.devRef .tc main_v0) = _
  after_results
  all_goals rfl

theorem V_wgt (c : Dev nD) : (V m c main_v1 : S256x256.Idx → EReal)
    = transpose S256x256 [1, 0] (wgt m c) Facts₀.transposes_S256x256_S256x256_1_0 := by
  show StableHlo.after hostOps0 (fun b => m (c, b)) (Proc.devRef .tc main_v1) = _
  after_results
  all_goals rfl

theorem V_bias (c : Dev nD) : (V m c main_v2 : S1x256.Idx → EReal)
    = shapeCast S1x256 (bias m c) Facts₀.shapeCasts_S256_S1x256 := by
  show StableHlo.after hostOps0 (fun b => m (c, b)) (Proc.devRef .tc main_v2) = _
  after_results
  all_goals rfl

theorem V_pos (c : Dev nD) : (V m c main_v3 : S32x3x512.Idx → EReal)
    = transpose S32x3x512 [0, 2, 1] (pos m c) Facts₀.transposes_S32x512x3_S32x3x512_0_2_1 := by
  show StableHlo.after hostOps0 (fun b => m (c, b)) (Proc.devRef .tc main_v3) = _
  after_results
  all_goals rfl

/-- Entry `(s, p, k)` of the reshaped features is row `s·512 + p`, column `k`. -/
theorem feat_at (c : Dev nD) (s : Fin 32) (p : Fin 512) (k : Fin 256) :
    (V m c main_v0 : S32x512x256.Idx → EReal) (ix3 s p k) = feat m c (ix2 (row s p) k) := by
  rw [V_feat]
  exact shapeCast_apply _ _ _ _ (by
    rw [Shape.rowMajor_val_two, Shape.rowMajor_val_three]
    rfl)

theorem wgt_at (c : Dev nD) (k f : Fin 256) :
    (V m c main_v1 : S256x256.Idx → EReal) (ix2 k f) = wgt m c (ix2 f k) := by
  rw [V_wgt]
  exact transpose_ix2_apply _ _ k f

theorem bias_at (c : Dev nD) (f : Fin 256) :
    (V m c main_v2 : S1x256.Idx → EReal) (ix2 0 f) = bias m c (ix1 f) := by
  rw [V_bias]
  exact shapeCast_a_1a_apply _ _ 0 f

theorem pos_at (c : Dev nD) (s : Fin 32) (a : Fin 3) (p : Fin 512) :
    (V m c main_v3 : S32x3x512.Idx → EReal) (ix3 s a p) = pos m c (ix3 s p a) := by
  rw [V_pos]
  exact transpose_ix3_021_apply _ _ s a p

/-! ## The grid and the blocks -/

/-- The block index of every window at every grid point: the position, feature and output windows move with the point
    along the first axis; the weight and bias windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The system a grid point works on. -/
def sys (t : Fin cfg0.N) : Fin 32 := Fin.cast N_0 t

/-- The position block at point `t`: coordinate `a` of atom `p` of system `t`. -/
theorem blk_pos (c : Dev nD) (t : Fin cfg0.N) (a : Fin 3) (p : Fin 512) :
    (iblk m c 0 t : Vec Ideal S1x3x512 .f32) (ix3 0 a p) = pos m c (ix3 (sys t) p a) := by
  obtain ⟨e0, e1, e2, -⟩ := idx_facts t
  refine Eq.trans ?_ (pos_at m c (sys t) a p)
  unfold iblk
  rw [View.read_apply]
  show V m c main_v3 _ = V m c main_v3 _
  refine congrArg (V m c main_v3 : S32x3x512.Idx → EReal) (funext fun d => Fin.ext ?_)
  match d with
  | ⟨0, _⟩ => show win0_0.index t (0 : Fin 3) * 1 + 1 * 0 = t.val; omega
  | ⟨1, _⟩ => show win0_0.index t (1 : Fin 3) * 3 + 1 * a.val = a.val; omega
  | ⟨2, _⟩ => show win0_0.index t (2 : Fin 3) * 512 + 1 * p.val = p.val; omega

/-- The feature block at point `t`: the 512 feature rows of system `t`. -/
theorem blk_feat (c : Dev nD) (t : Fin cfg0.N) (p : Fin 512) (k : Fin 256) :
    (iblk m c 1 t : Vec Ideal S1x512x256 .f32) (ix3 0 p k) = feat m c (ix2 (row (sys t) p) k) := by
  obtain ⟨-, -, -, e0, e1, e2, -⟩ := idx_facts t
  refine Eq.trans ?_ (feat_at m c (sys t) p k)
  unfold iblk
  rw [View.read_apply]
  show V m c main_v0 _ = V m c main_v0 _
  refine congrArg (V m c main_v0 : S32x512x256.Idx → EReal) (funext fun d => Fin.ext ?_)
  match d with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 256 + 1 * k.val = k.val; omega

/-- The weight block at every point: the whole transposed weight matrix. -/
theorem blk_wgt (c : Dev nD) (t : Fin cfg0.N) (k f : Fin 256) :
    (iblk m c 2 t : Vec Ideal S256x256 .f32) (ix2 k f) = wgt m c (ix2 f k) := by
  obtain ⟨-, -, -, -, -, -, e0, e1, -⟩ := idx_facts t
  refine Eq.trans ?_ (wgt_at m c k f)
  unfold iblk
  rw [View.read_apply]
  show V m c main_v1 _ = V m c main_v1 _
  refine congrArg (V m c main_v1 : S256x256.Idx → EReal) (funext fun d => Fin.ext ?_)
  match d with
  | ⟨0, _⟩ => show win0_2.index t (0 : Fin 2) * 256 + 1 * k.val = k.val; omega
  | ⟨1, _⟩ => show win0_2.index t (1 : Fin 2) * 256 + 1 * f.val = f.val; omega

/-- The bias block at every point: the bias row. -/
theorem blk_bias (c : Dev nD) (t : Fin cfg0.N) (f : Fin 256) :
    (iblk m c 3 t : Vec Ideal S1x256 .f32) (ix2 0 f) = bias m c (ix1 f) := by
  obtain ⟨-, -, -, -, -, -, -, -, e0, e1, -⟩ := idx_facts t
  refine Eq.trans ?_ (bias_at m c f)
  unfold iblk
  rw [View.read_apply]
  show V m c main_v2 _ = V m c main_v2 _
  refine congrArg (V m c main_v2 : S1x256.Idx → EReal) (funext fun d => Fin.ext ?_)
  match d with
  | ⟨0, _⟩ => show win0_3.index t (0 : Fin 2) * 1 + 1 * 0 = 0; omega
  | ⟨1, _⟩ => show win0_3.index t (1 : Fin 2) * 256 + 1 * f.val = f.val; omega

/-- The charges and squared distances of the block at point `t` are those of system `t`. -/
theorem charge_at (c : Dev nD) (t : Fin cfg0.N) (p : Fin 512) (f : Fin 256) :
    blockCharge (iblk m c 1 t) (iblk m c 2 t) (iblk m c 3 t) p f
      = charge (feat m c) (wgt m c) (bias m c) (row (sys t) p) f := by
  unfold blockCharge charge
  rw [blk_bias]
  refine congrArg (· + bias m c (ix1 f)) (Finset.sum_congr rfl fun k _ => ?_)
  rw [blk_feat, blk_wgt]

theorem sqDist_at (c : Dev nD) (t : Fin cfg0.N) (p j : Fin 512) :
    blockSqDist (iblk m c 0 t) p j = sqDist (pos m c) (sys t) p j := by
  unfold blockSqDist sqDist
  rw [blk_pos m c t 0 p, blk_pos m c t 0 j, blk_pos m c t 1 p, blk_pos m c t 1 j, blk_pos m c t 2 p, blk_pos m c t 2 j]

/-! ## The output array -/

/-- What the output array ends holding: the result, with the pair weight in the form the kernel computes it. -/
def kernelResult (c : Dev nD) : S32x512x256.Idx → EReal :=
  fun i => energy (weightRsqrt (pos m c)) (charge (feat m c) (wgt m c) (bias m c)) (i 0) (i 1) (i 2)

/-- It is the result: the two forms of the pair weight are one function. -/
theorem kernelResult_eq (c : Dev nD) : kernelResult m c = result (pos m c) (feat m c) (wgt m c) (bias m c) := by
  unfold kernelResult result
  rw [weightRsqrt_eq_weightSqrt]

/-- What the body stores at point `t`, at `(0, p, f)`, is the result at `(t, p, f)`. -/
theorem point_at (c : Dev nD) (t : Fin cfg0.N) (p : Fin 512) (f : Fin 256) :
    out0_4 (iblk m c 0 t) (iblk m c 1 t) (iblk m c 2 t) (iblk m c 3 t) (ix3 0 p f) = kernelResult m c (ix3 (sys t) p f) := by
  rw [block_apply, charge_at]
  show _ = (half * ∑ j : Fin 512, weightRsqrt (pos m c) (sys t) p j * charge (feat m c) (wgt m c) (bias m c) (row (sys t) j) f)
    * charge (feat m c) (wgt m c) (bias m c) (row (sys t) p) f
  refine congrArg (fun z => (half * z) * charge (feat m c) (wgt m c) (bias m c) (row (sys t) p) f)
    (Finset.sum_congr rfl fun j _ => ?_)
  rw [charge_at, sqDist_at]
  rfl

/-- WHAT POINT `t` WRITES BACK is block `t` of the result. -/
theorem flushed_eq (c : Dev nD) (t : Fin cfg0.N) :
    (dats m 0 c).flushed 4 t = ((cfg0.win 4).blk t).view.read (Elt Ideal) (kernelResult m c) := by
  show (cfg0.win 4).cut (grid0.coords t) ((dats m 0 c).after 4 t) = _
  rw [after0_4]
  obtain ⟨-, -, -, -, -, -, -, -, -, -, e0, e1, e2⟩ := idx_facts t
  funext y
  obtain ⟨u, p, f, rfl⟩ : ∃ (u : Fin 1) (p : Fin 512) (f : Fin 256), y = ix3 u p f := ⟨y 0, y 1, y 2, eq_ix3 y⟩
  obtain rfl : u = 0 := Subsingleton.elim _ _
  show out0_4 (iblk m c 0 t) (iblk m c 1 t) (iblk m c 2 t) (iblk m c 3 t) (ix3 0 p f)
    = kernelResult m c (((cfg0.win 4).blk t).view.emb (ix3 0 p f))
  rw [point_at]
  refine congrArg (kernelResult m c) (funext fun d => Fin.ext ?_)
  match d with
  | ⟨0, _⟩ => show t.val = win0_4.index t (0 : Fin 3) * 1 + 1 * 0; omega
  | ⟨1, _⟩ => show p.val = win0_4.index t (1 : Fin 3) * 512 + 1 * p.val; omega
  | ⟨2, _⟩ => show f.val = win0_4.index t (2 : Fin 3) * 256 + 1 * f.val; omega

/-- Every index of the output lies in the block of its system. -/
theorem cover (i : S32x512x256.Idx) :
    ∃ t : Fin cfg0.N, (cfg0.win 4).flush t = true ∧ i ∈ ((cfg0.win 4).blk t).view.set := by
  have hN : cfg0.N = 32 := N_0
  have h0 : (i 0).val < 32 := (i 0).isLt
  have h1 : (i 1).val < 512 := (i 1).isLt
  have h2 : (i 2).val < 256 := (i 2).isLt
  have ht : (i 0).val < cfg0.N := by rw [hN]; exact h0
  refine ⟨⟨(i 0).val, ht⟩, flush0_4 _, ?_⟩
  obtain ⟨-, -, -, -, -, -, -, -, -, -, e0', e1, e2⟩ := idx_facts ⟨(i 0).val, ht⟩
  have e0 : win0_4.index ⟨(i 0).val, ht⟩ (0 : Fin 3) = (i 0).val := e0'
  show i ∈ ((View.whole main_v4).slice (win0_4.rect ⟨(i 0).val, ht⟩)).set
  rw [View.set_slice_whole, Rect.mem_set_unit]
  intro a
  match a with
  | ⟨0, _⟩ =>
    show win0_4.index _ (0 : Fin 3) * 1 ≤ (i 0).val ∧ (i 0).val < win0_4.index _ (0 : Fin 3) * 1 + 1
    rw [e0]; omega
  | ⟨1, _⟩ =>
    show win0_4.index _ (1 : Fin 3) * 512 ≤ (i 1).val ∧ (i 1).val < win0_4.index _ (1 : Fin 3) * 512 + 512
    rw [e1]; omega
  | ⟨2, _⟩ =>
    show win0_4.index _ (2 : Fin 3) * 256 ≤ (i 2).val ∧ (i 2).val < win0_4.index _ (2 : Fin 3) * 256 + 256
    rw [e2]; omega

/-- THE OUTPUT ARRAY after the region is the result. -/
theorem final (c : Dev nD) : (dats m 0 c).arrAt 4 cfg0.N = result (pos m c) (feat m c) (wgt m c) (bias m c) :=
  ((dats m 0 c).arrAt_eq_of_cover 4 (kernelResult m c) (fun t _ => flushed_eq m c t) cover).trans (kernelResult_eq m c)

/-! ## The line after the region, and the run -/

/-- The program's result: the output array reshaped to one row per atom. -/
theorem tail (c : Dev nD) :
    Pipeline.afterTail₀ cfgs (dats m) 0 (V0 m) [hostOps1] c main_v5
      = shapeCast S16384x256 (result (pos m c) (feat m c) (wgt m c) (bias m c)) Facts₀.shapeCasts_S32x512x256_S16384x256 := by
  unfold Pipeline.afterTail₀
  show StableHlo.after hostOps1 _ (Proc.devRef .tc main_v5) = _
  after_results
  exact congrArg (fun x : S32x512x256.Idx → EReal => shapeCast S16384x256 x Facts₀.shapeCasts_S32x512x256_S16384x256)
    ((Pipeline.withArrays_arr spec0 launch0.win.arr_inj c _ _ 4).trans (final m c))

/-- The run, read: the result buffer ends at the reshaped result, the arguments unchanged. -/
theorem run : θ_run defs (onTc (τ := τ) (main (F := Ideal))) ⟨m, fun _ => 0, ρ⟩ fun r => ∀ c : Dev nD,
      r.2.mem ((c.tc : Thread nD τ).loc main_v5)
        = shapeCast S16384x256 (result (pos m c) (feat m c) (wgt m c) (bias m c)) Facts₀.shapeCasts_S32x512x256_S16384x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/- The kernel and its reference compute one function of their four argument arrays over the extended reals.

   32 systems of 512 atoms each; every atom has 256 charges, a linear map of its features plus a bias.  For every pair of
   atoms of one system the programs form the Coulomb weight of their distance with a cosine switch below distance 5,
   `0` on the diagonal; the result at an atom and a charge channel is half the sum over the system's atoms of weight
   times charge, times the atom's own charge (Proof/Potential.lean).

   The two programs differ in one place.  From the squared distance `x` the kernel takes `r⁻¹ = rsqrt x` and `r = x·rsqrt x`,
   the reference `r = √x` and `r⁻¹ = 1/r`.  A squared distance is a sum of three squares, hence in `[0, +∞]`, and there the
   two agree — at `0` and at `+∞` too, by the conventions of the extended reals (Proof/PairWeight.lean).  No finiteness of
   the inputs is used.  Everything else is the same arithmetic laid out differently: one system per grid point against one
   batched product, rows of coordinates against a trailing axis of three, a product with a transposed matrix on both sides.

   Proof/KernelBlock.lean reads what one grid point stores, Proof/KernelArray.lean the kernel's whole run,
   Proof/ReferenceValue.lean the reference; both end at the same reshape of `Potential.result`.  The idealized kernel is the
   kernel's own operations read over the extended reals, none of them replaced, so the preservation conjunct is `True`. -/
import proofs.«158745_j51788715655672_2_alg».proof.Defs
import proofs.«158745_j51788715655672_2_alg».proof.Proof.Gen.Kernel
import proofs.«158745_j51788715655672_2_alg».proof.Proof.Gen.Kernel.Skeleton
import proofs.«158745_j51788715655672_2_alg».proof.Proof.Gen.Kernel.Launch
import proofs.«158745_j51788715655672_2_alg».proof.Proof.Gen.Kernel.Points
import proofs.«158745_j51788715655672_2_alg».proof.Proof.Gen.Kernel.Frame
import proofs.«158745_j51788715655672_2_alg».proof.Proof.Gen.KernelIdeal
import proofs.«158745_j51788715655672_2_alg».proof.Proof.Gen.KernelIdeal.Skeleton
import proofs.«158745_j51788715655672_2_alg».proof.Proof.Gen.KernelIdeal.Launch
import proofs.«158745_j51788715655672_2_alg».proof.Proof.Gen.KernelIdeal.Points
import proofs.«158745_j51788715655672_2_alg».proof.Proof.Gen.KernelIdeal.Frame
import proofs.«158745_j51788715655672_2_alg».proof.Proof.Gen.ReferenceIdeal
import proofs.«158745_j51788715655672_2_alg».proof.Proof.Gen.ReferenceIdeal.Run
import proofs.«158745_j51788715655672_2_alg».proof.Proof.Gen.ReferenceIdeal.Read
import proofs.«158745_j51788715655672_2_alg».proof.Proof.Gen.Pre_finite_inputs
import proofs.«158745_j51788715655672_2_alg».proof.Proof.ReferenceValue
import proofs.«158745_j51788715655672_2_alg».proof.Proof.KernelArray
import Idealize.ShloMosaic.Adequacy
import Idealize.ShloMosaic.Init

noncomputable section

namespace Cert.Proof

open Idealize.ShloMosaic Idealize.SL.Sem Cert.Kernel

/-- The three programs run, without a fault, and leave their arguments as they were: the two kernels by their generated
    frames, the reference by its generated run. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result buffer at the reshape of
    `Potential.result` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2]
  unfold Cert.ReferenceIdeal.Read.val_main_v42
  rw [Cert.ReferenceIdeal.RefValue.result_ref]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
